-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S128x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S_, .f32⟩
  | .hbm, ⟨15, _⟩ => ⟨S10000x128, .f32⟩
  | .hbm, ⟨16, _⟩ => ⟨S10000x128, .i1⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S128x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S_, .f32⟩
  | .hbm, ⟨29, _⟩ => ⟨S10000x128, .f32⟩
  | .hbm, ⟨30, _⟩ => ⟨S10000x128, .i1⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Piece.lean ====
/-
  What the kernel body leaves in the output block's staging buffer, as a value.

  The body makes one store, of the whole 400 × 128 block; its payload is a pure function of seven loads: the block of
  adjacency rows, the embedding table (whole), the table's 400 rows that start at row 400 · i (i the grid coordinate),
  the two weight matrices and the two bias rows. Every load but the third reads a whole buffer through the rectangle at
  zero offsets, so it reads the buffer's contents; the third reads the table through the rectangle of its rows.
-/
import proofs.«171127_g21217138442513_cont_8to1_279_24_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Hand

open Cert.KernelIdeal Cert.KernelIdeal.Gen

variable {F : FTy → Type} [FloatOps F]

/-- The zero offsets of a whole-buffer rectangle, however spelt. -/
theorem hz : (![0, 0] : Fin 2 → Nat) = fun _ => 0 := funext fun a => by fin_cases a <;> rfl

/-- The table's rows `400 · i … 400 · i + 399`, as the body loads them. -/
abbrev rowsOf (i : grid0.Coords) (x1 : Vec F S10000x128 .f32) : Vec F S400x128 .f32 :=
  View.ld x1 (Rect.unit (s := S10000x128) (k0_off1 i) S400x128.size (k0_off1_inb i))

/-- After the body, the output's staging buffer holds the payload of its one covering store, computed from the input
    buffers' contents. -/
theorem out_eq (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S400x128 .f32) (h7 : a7.IsWhole)
    (x0 : Vec F S400x10000 .f32) (x1 : Vec F S10000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 x0 x1 x2 x3 x4 x5 = k0_pay1 x0 x1 (rowsOf i x1) x2 x3 x4 x5 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  rw [View.canon_unit_zero hz]
  simp only [View.readAt_eq_ld, h1.read_unread, h2.read_unread, h3.read_unread, h4.read_unread, h5.read_unread,
    h6.read_unread, View.ld_unit_zero (S := S400x10000) hz, View.ld_unit_zero (S := S10000x128) hz,
    View.ld_unit_zero (S := S128x128) hz, View.ld_unit_zero (S := S1x128) hz]

end Cert.KernelIdeal.Hand

end
-- ==== Proof.BlockReads.lean ====
/-
  What the kernel's loads read, in terms of the argument arrays.

  The grid has 25 points. At point `t` the adjacency window's block is rows `400 t … 400 t + 399` of the matrix
  (all 10000 columns), the output window's block the same rows of the result; the embedding table, the two weight
  matrices and the two bias rows are staged whole at every point, and the body's second load of the table starts at
  row `400 t`. The bias rows are the bias vectors given a leading unit axis by the two reshapes that precede the launch.
-/
import proofs.«171127_g21217138442513_cont_8to1_279_24_alg».proof.Proof.Gen.KernelIdeal.Value
import proofs.«171127_g21217138442513_cont_8to1_279_24_alg».proof.Proof.Piece
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

/-- The printed index maps and the body's row offset, decided over the 25 grid points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ k0_off1 (grid0.coords t) (0 : Fin 2) = 400 * t.val ∧ k0_off1 (grid0.coords t) (1 : Fin 2) = 0 :=
  (by decide +kernel : ∀ t : Fin grid0.N, _)

/-- A vector of 128 entries cast to one row of 128 reads, at `(0, q)`, the vector at `q`. -/
theorem row_of_vec {α : Type} (b : S128.Idx → α) (q : Fin 128) :
    shapeCast S1x128 b shapeCasts_S128_S1x128 (ix2 (0 : Fin 1) q) = b (ix1 q) := by
  refine shapeCast_apply b _ (ix2 (0 : Fin 1) q) (ix1 q) ?_
  rw [Shape.rowMajor_val_one, Shape.rowMajor_val_two]
  show q.val = 0 * 128 + q.val
  omega

/-- The first bias row as the launch finds it: the first bias vector reshaped. -/
theorem V_bias1 (c : Dev nD) : (V m c main_call0_v0 : S1x128.Idx → Elt F .f32)
    = shapeCast S1x128 (m ((c : Thread nD τ).loc main_arg3) : S128.Idx → Elt F .f32) shapeCasts_S128_S1x128 := by
  dsimp only [V, hostOps0]
  after_results
  rfl

/-- The second bias row as the launch finds it: the second bias vector reshaped. -/
theorem V_bias2 (c : Dev nD) : (V m c main_call0_v1 : S1x128.Idx → Elt F .f32)
    = shapeCast S1x128 (m ((c : Thread nD τ).loc main_arg5) : S128.Idx → Elt F .f32) shapeCasts_S128_S1x128 := by
  dsimp only [V, hostOps0]
  after_results
  rfl

/-- The adjacency block at point `t`: row `r` of the block is row `400 t + r` of the matrix. -/
theorem blkA_apply (c : Dev nD) (t : Fin cfg0.N) (r : Fin 400) (j : Fin 10000) (R : Fin 10000) (hR : R.val = 400 * t.val + r.val) :
    (iblk m c 0 t : Vec F S400x10000 .f32) (ix2 r j)
      = (m ((c : Thread nD τ).loc main_arg1) : S10000x10000.Idx → Elt F .f32) (ix2 R j) := by
  obtain ⟨e0, e1, -⟩ := idx_facts t
  unfold iblk
  rw [View.read_apply]
  show V m c main_arg1 _ = _
  rw [V_main_arg1]
  congr 1
  funext a
  apply Fin.ext
  match a with
  | ⟨0, _⟩ => show win0_0.index t 0 * 400 + 1 * r.val = R.val; rw [e0, hR]; omega
  | ⟨1, _⟩ => show win0_0.index t 1 * 10000 + 1 * j.val = j.val; rw [e1]; omega

/-- The table's block is the whole table, at every point. -/
theorem blkE_eq (c : Dev nD) (t : Fin cfg0.N) :
    (iblk m c 1 t : Vec F S10000x128 .f32) = (m ((c : Thread nD τ).loc main_arg0) : S10000x128.Idx → Elt F .f32) := by
  obtain ⟨-, -, e0, e1, -⟩ := idx_facts t
  funext x
  unfold iblk
  rw [View.read_apply]
  show V m c main_arg0 _ = _
  rw [V_main_arg0]
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The first weight matrix's block is the whole matrix. -/
theorem blkW1_eq (c : Dev nD) (t : Fin cfg0.N) :
    (iblk m c 2 t : Vec F S128x128 .f32) = (m ((c : Thread nD τ).loc main_arg2) : S128x128.Idx → Elt F .f32) := by
  obtain ⟨-, -, -, -, e0, e1, -⟩ := idx_facts t
  funext x
  unfold iblk
  rw [View.read_apply]
  show V m c main_arg2 _ = _
  rw [V_main_arg2]
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The second weight matrix's block is the whole matrix. -/
theorem blkW2_eq (c : Dev nD) (t : Fin cfg0.N) :
    (iblk m c 4 t : Vec F S128x128 .f32) = (m ((c : Thread nD τ).loc main_arg4) : S128x128.Idx → Elt F .f32) := by
  obtain ⟨-, -, -, -, -, -, -, -, e0, e1, -⟩ := idx_facts t
  funext x
  unfold iblk
  rw [View.read_apply]
  show V m c main_arg4 _ = _
  rw [V_main_arg4]
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- The first bias row's block, at `(0, q)`, is the first bias vector at `q`. -/
theorem blkB1_apply (c : Dev nD) (t : Fin cfg0.N) (q : Fin 128) :
    (iblk m c 3 t : Vec F S1x128 .f32) (ix2 (0 : Fin 1) q)
      = (m ((c : Thread nD τ).loc main_arg3) : S128.Idx → Elt F .f32) (ix1 q) := by
  obtain ⟨-, -, -, -, -, -, e0, e1, -⟩ := idx_facts t
  refine Eq.trans ?_ (row_of_vec (m ((c : Thread nD τ).loc main_arg3) : S128.Idx → Elt F .f32) q)
  rw [← V_bias1 m c]
  unfold iblk
  rw [View.read_apply]
  show V m c main_call0_v0 _ = _
  congr 1
  funext a
  apply Fin.ext
  match a with
  | ⟨0, _⟩ => show win0_3.index t 0 * 1 + 1 * 0 = 0; rw [e0]
  | ⟨1, _⟩ => show win0_3.index t 1 * 128 + 1 * q.val = q.val; rw [e1]; omega

/-- The second bias row's block, at `(0, q)`, is the second bias vector at `q`. -/
theorem blkB2_apply (c : Dev nD) (t : Fin cfg0.N) (q : Fin 128) :
    (iblk m c 5 t : Vec F S1x128 .f32) (ix2 (0 : Fin 1) q)
      = (m ((c : Thread nD τ).loc main_arg5) : S128.Idx → Elt F .f32) (ix1 q) := by
  obtain ⟨-, -, -, -, -, -, -, -, -, -, e0, e1, -⟩ := idx_facts t
  refine Eq.trans ?_ (row_of_vec (m ((c : Thread nD τ).loc main_arg5) : S128.Idx → Elt F .f32) q)
  rw [← V_bias2 m c]
  unfold iblk
  rw [View.read_apply]
  show V m c main_call0_v1 _ = _
  congr 1
  funext a
  apply Fin.ext
  match a with
  | ⟨0, _⟩ => show win0_5.index t 0 * 1 + 1 * 0 = 0; rw [e0]
  | ⟨1, _⟩ => show win0_5.index t 1 * 128 + 1 * q.val = q.val; rw [e1]; omega

/-- The body's second load of the table at point `t`: row `r` of what it reads is row `400 t + r` of the table. -/
theorem rows_apply (t : Fin cfg0.N) (x1 : Vec F S10000x128 .f32) (r : Fin 400) (k : Fin 128) (R : Fin 10000)
    (hR : R.val = 400 * t.val + r.val) :
    rowsOf (grid0.coords t) x1 (ix2 r k) = x1 (ix2 R k) := by
  obtain ⟨-, -, -, -, -, -, -, -, -, -, -, -, -, -, e0, e1⟩ := idx_facts t
  show x1 _ = x1 _
  congr 1
  funext a
  apply Fin.ext
  match a with
  | ⟨0, _⟩ => show k0_off1 (grid0.coords t) 0 + 1 * r.val = R.val; rw [e0, hR]; omega
  | ⟨1, _⟩ => show k0_off1 (grid0.coords t) 1 + 1 * k.val = k.val; rw [e1]; omega

end Cert.KernelIdeal.Hand

end
-- ==== Proof.Spec.lean ====
/-
  The function both programs compute, entry by entry, on the extended reals.

  With `side r k = Σ_j A[r, j] · ego[j, k]` (the neighbourhood aggregation), entry `(r, c)` of the result is
    leaky (Σ_k (ego[r, k] + side r k) · W1[c, k] + b1[c])  +  leaky (Σ_k (ego[r, k] · side r k) · W2[c, k] + b2[c]),
  where `leaky x` is `x` when `0 ≤ x` and `slope · x` otherwise, `slope` the f32 word nearest 1/100 read at its
  exact binary value (the same word in both programs, so it is never evaluated).
-/
import Idealize.ShloMosaic.PureOps.Ideal
import Idealize.ShloMosaic.Lib.ValueIdx

noncomputable section

namespace Cert.Agg

open Idealize.ShloMosaic Idealize.ShloMosaic.ValueIdx
open scoped BigOperators

/-- The leaky rectifier on an extended real: the argument itself when it is at least zero, the slope times it otherwise. -/
def leaky (x : EReal) : EReal :=
  Scalar.select (Ideal.cmp .oge x (Ideal.ofBits .f32 0x00000000#32)) x (Ideal.ofBits .f32 0x3C23D70A#32 * x)

/-- Row `r`, column `k` of the aggregated neighbourhood `A · ego`. -/
def side (ego : FVec Ideal ⟨2, ![10000, 128]⟩ .f32) (A : FVec Ideal ⟨2, ![10000, 10000]⟩ .f32) (r : Fin 10000) (k : Fin 128) : EReal :=
  ∑ j : Fin 10000, A (ix2 r j) * ego (ix2 j k)

/-- The pre-activation of the additive branch at `(r, c)`: `(ego + A · ego) · W1ᵀ + b1`. -/
def preSum (ego : FVec Ideal ⟨2, ![10000, 128]⟩ .f32) (A : FVec Ideal ⟨2, ![10000, 10000]⟩ .f32)
    (W1 : FVec Ideal ⟨2, ![128, 128]⟩ .f32) (b1 : FVec Ideal ⟨1, ![128]⟩ .f32) (r : Fin 10000) (c : Fin 128) : EReal :=
  (∑ k : Fin 128, (ego (ix2 r k) + side ego A r k) * W1 (ix2 c k)) + b1 (ix1 c)

/-- The pre-activation of the multiplicative branch at `(r, c)`: `(ego ⊙ A · ego) · W2ᵀ + b2`. -/
def preBi (ego : FVec Ideal ⟨2, ![10000, 128]⟩ .f32) (A : FVec Ideal ⟨2, ![10000, 10000]⟩ .f32)
    (W2 : FVec Ideal ⟨2, ![128, 128]⟩ .f32) (b2 : FVec Ideal ⟨1, ![128]⟩ .f32) (r : Fin 10000) (c : Fin 128) : EReal :=
  (∑ k : Fin 128, (ego (ix2 r k) * side ego A r k) * W2 (ix2 c k)) + b2 (ix1 c)

/-- The whole result array: the two rectified branches added, the additive one first. -/
def G (ego : FVec Ideal ⟨2, ![10000, 128]⟩ .f32) (A : FVec Ideal ⟨2, ![10000, 10000]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) : FVec Ideal ⟨2, ![10000, 128]⟩ .f32 :=
  fun i => leaky (preSum ego A W1 b1 (i 0) (i 1)) + leaky (preBi ego A W2 b2 (i 0) (i 1))

end Cert.Agg

end
-- ==== Proof.Payload.lean ====
/-
  The body's payload read at one entry of the block, on the extended reals.

  Entry `(r, c)` of the stored block, from the loaded values `a` (adjacency rows), `e` (the table), `er` (the table's
  rows of this block), `w1`, `w2` (weights) and `b1`, `b2` (bias rows): with `s k = Σ_j a[r, j] · e[j, k]`,
    leaky (Σ_k (er[r, k] + s k) · w1[c, k] + b1[0, c]) + leaky (Σ_k (er[r, k] · s k) · w2[c, k] + b2[0, c]).
  Each matrix product into a zero accumulator is the plain sum over its one contracted axis.
-/
import proofs.«171127_g21217138442513_cont_8to1_279_24_alg».proof.Proof.Gen.KernelIdeal.Skeleton
import proofs.«171127_g21217138442513_cont_8to1_279_24_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Hand

open Cert.KernelIdeal Cert.KernelIdeal.Gen Cert.Agg

/-- The first product, rows of the adjacency block against the table: contracted over the table's 10000 rows. -/
theorem mm_side (a : FVec Ideal S400x10000 .f32) (e : FVec Ideal S10000x128 .f32) (r : Fin 400) (k : Fin 128) :
    matmul (F := Ideal) dot_S400x10000_S10000x128_S400x128_1_0_0_1_n_n none a e (constant S400x128 .f32 0x00000000#32) (ix2 r k)
      = ∑ j : Fin 10000, a (ix2 r j) * e (ix2 j k) := by
  simp only [matmul]
  rw [Ideal.matmul_constant_zero_apply,
    ← Equiv.sum_comp (contrEquiv1 dot_S400x10000_S10000x128_S400x128_1_0_0_1_n_n 10000 rfl rfl).symm]
  refine Finset.sum_congr rfl fun j _ => ?_
  have hl : dot_S400x10000_S10000x128_S400x128_1_0_0_1_n_n.lhsIdx (ix2 r k)
      ((contrEquiv1 dot_S400x10000_S10000x128_S400x128_1_0_0_1_n_n 10000 rfl rfl).symm j) = ix2 r j :=
    funext fun ax => Fin.ext (by
      match ax with
      | ⟨0, _⟩ => rfl
      | ⟨1, _⟩ => exact (DotDims.lhsIdx_val_of_single _ rfl _ _).trans (contrEquiv1_symm_val _ _ _ _ j))
  have hr : dot_S400x10000_S10000x128_S400x128_1_0_0_1_n_n.rhsIdx (ix2 r k)
      ((contrEquiv1 dot_S400x10000_S10000x128_S400x128_1_0_0_1_n_n 10000 rfl rfl).symm j) = ix2 j k :=
    funext fun ax => Fin.ext (by
      match ax with
      | ⟨0, _⟩ => exact (DotDims.rhsIdx_val_of_single _ rfl _ _).trans (contrEquiv1_symm_val _ _ _ _ j)
      | ⟨1, _⟩ => rfl)
  rw [hl, hr]

/-- A product against a weight matrix's SECOND axis (`x · wᵀ`): contracted over the 128 input features. -/
theorem mm_weight (x : FVec Ideal S400x128 .f32) (w : FVec Ideal S128x128 .f32) (r : Fin 400) (c : Fin 128) :
    matmul (F := Ideal) dot_S400x128_S128x128_S400x128_1_1_0_0_n_n none x w (constant S400x128 .f32 0x00000000#32) (ix2 r c)
      = ∑ k : Fin 128, x (ix2 r k) * w (ix2 c k) := by
  simp only [matmul]
  rw [Ideal.matmul_constant_zero_apply,
    ← Equiv.sum_comp (contrEquiv1 dot_S400x128_S128x128_S400x128_1_1_0_0_n_n 128 rfl rfl).symm]
  refine Finset.sum_congr rfl fun k _ => ?_
  have hl : dot_S400x128_S128x128_S400x128_1_1_0_0_n_n.lhsIdx (ix2 r c)
      ((contrEquiv1 dot_S400x128_S128x128_S400x128_1_1_0_0_n_n 128 rfl rfl).symm k) = ix2 r k :=
    funext fun ax => Fin.ext (by
      match ax with
      | ⟨0, _⟩ => rfl
      | ⟨1, _⟩ => exact (DotDims.lhsIdx_val_of_single _ rfl _ _).trans (contrEquiv1_symm_val _ _ _ _ k))
  have hr : dot_S400x128_S128x128_S400x128_1_1_0_0_n_n.rhsIdx (ix2 r c)
      ((contrEquiv1 dot_S400x128_S128x128_S400x128_1_1_0_0_n_n 128 rfl rfl).symm k) = ix2 c k :=
    funext fun ax => Fin.ext (by
      match ax with
      | ⟨0, _⟩ => rfl
      | ⟨1, _⟩ => exact (DotDims.rhsIdx_val_of_single _ rfl _ _).trans (contrEquiv1_symm_val _ _ _ _ k))
  rw [hl, hr]

/-- A bias row, cast to its own shape and broadcast over the block's rows, reads the row at the column. -/
theorem bias_apply (b : FVec Ideal S1x128 .f32) (r : Fin 400) (c : Fin 128) :
    broadcastTo S400x128 (shapeCast S1x128 b shapeCasts_S1x128_S1x128) broadcasts_S1x128_S400x128 (ix2 r c) = b (ix2 (0 : Fin 1) c) := by
  rw [shapeCast_self]
  exact broadcastTo_1b_ab_apply b _ r c

/-- The payload at entry `(r, c)`. -/
theorem pay_apply (a : Vec Ideal S400x10000 .f32) (e : Vec Ideal S10000x128 .f32) (er : Vec Ideal S400x128 .f32)
    (w1 : Vec Ideal S128x128 .f32) (b1 : Vec Ideal S1x128 .f32) (w2 : Vec Ideal S128x128 .f32) (b2 : Vec Ideal S1x128 .f32)
    (r : Fin 400) (c : Fin 128) :
    k0_pay1 (F := Ideal) a e er w1 b1 w2 b2 (ix2 r c)
      = leaky ((∑ k : Fin 128, (er (ix2 r k) + ∑ j : Fin 10000, a (ix2 r j) * e (ix2 j k)) * w1 (ix2 c k)) + b1 (ix2 (0 : Fin 1) c))
        + leaky ((∑ k : Fin 128, (er (ix2 r k) * ∑ j : Fin 10000, a (ix2 r j) * e (ix2 j k)) * w2 (ix2 c k)) + b2 (ix2 (0 : Fin 1) c)) := by
  unfold k0_pay1
  simp only [addf_apply, select_apply, cmpf_apply, mulf_apply, broadcast_apply]
  rw [bias_apply, bias_apply, mm_weight, mm_weight]
  simp only [addf_apply, mulf_apply, mm_side]
  rfl

/-- THE BLOCK ENTRY IS THE ARRAY ENTRY: when the loaded values are the rows `R` of the adjacency matrix and of the
    table, the table itself, the weights, and the bias vectors laid out as rows, the payload at `(r, c)` is the
    specification at `(R, c)`. -/
theorem entry_eq (a : Vec Ideal S400x10000 .f32) (e : Vec Ideal S10000x128 .f32) (er : Vec Ideal S400x128 .f32)
    (w1 : Vec Ideal S128x128 .f32) (b1 : Vec Ideal S1x128 .f32) (w2 : Vec Ideal S128x128 .f32) (b2 : Vec Ideal S1x128 .f32)
    (ego : FVec Ideal ⟨2, ![10000, 128]⟩ .f32) (A : FVec Ideal ⟨2, ![10000, 10000]⟩ .f32)
    (W1 : FVec Ideal ⟨2, ![128, 128]⟩ .f32) (B1 : FVec Ideal ⟨1, ![128]⟩ .f32)
    (W2 : FVec Ideal ⟨2, ![128, 128]⟩ .f32) (B2 : FVec Ideal ⟨1, ![128]⟩ .f32)
    (r : Fin 400) (c : Fin 128) (R : Fin 10000)
    (ha : ∀ j : Fin 10000, a (ix2 r j) = A (ix2 R j)) (he : e = ego) (her : ∀ k : Fin 128, er (ix2 r k) = ego (ix2 R k))
    (hw1 : w1 = W1) (hb1 : ∀ q : Fin 128, b1 (ix2 (0 : Fin 1) q) = B1 (ix1 q))
    (hw2 : w2 = W2) (hb2 : ∀ q : Fin 128, b2 (ix2 (0 : Fin 1) q) = B2 (ix1 q)) :
    k0_pay1 (F := Ideal) a e er w1 b1 w2 b2 (ix2 r c) = G ego A W1 B1 W2 B2 (ix2 R c) := by
  subst he hw1 hw2
  rw [pay_apply]
  simp only [ha, her, hb1, hb2]
  rfl

end Cert.KernelIdeal.Hand

end
-- ==== Proof.KernelValue.lean ====
/-
  The kernel's result array, on the extended reals, is the specification of its six argument arrays.

  Point `t` of the grid writes back rows `400 t … 400 t + 399` of the result, each entry the body's payload of the
  blocks loaded at that point, which is the specification at that row and column; the 25 blocks of 400 rows tile the
  10000 rows, so every entry of the array is written, by the point `row / 400`.
-/
import proofs.«171127_g21217138442513_cont_8to1_279_24_alg».proof.Proof.BlockReads
import proofs.«171127_g21217138442513_cont_8to1_279_24_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Agg

variable (m : (ℓ : Loc nD τ sig) → Buf (Elt Ideal) ℓ) (ρ : Dev nD → PrngReg)

/-- The specification of the argument arrays on core `c`, as contents of the result array. -/
abbrev result (c : Dev nD) : Buf (Elt Ideal) ((c : Thread nD τ).loc main_v0) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point `t` writes back is block `t` of the specification. -/
theorem flushed_eq (c : Dev nD) (t : Fin cfg0.N) :
    (dats m 0 c).flushed 6 t = ((cfg0.win 6).blk t).view.read (Elt Ideal) (result m c) := by
  rw [Cert.KernelIdeal.Value.flushed6_A, out_eq]
  obtain ⟨-, -, -, -, -, -, -, -, -, -, -, -, e0, e1, -⟩ := idx_facts t
  have hN : cfg0.N = 25 := N_0
  funext j
  obtain ⟨r, q, rfl⟩ : ∃ (r : Fin 400) (q : Fin 128), j = ix2 r q := ⟨j 0, j 1, eq_ix2 j⟩
  have hR : 400 * t.val + r.val < 10000 := by have := t.isLt; have := r.isLt; omega
  show k0_pay1 (F := Ideal) (iblk m c 0 t) (iblk m c 1 t) (rowsOf (grid0.coords t) (iblk m c 1 t)) (iblk m c 2 t)
      (iblk m c 3 t) (iblk m c 4 t) (iblk m c 5 t) (ix2 r q) = result m c (((cfg0.win 6).blk t).view.emb (ix2 r q))
  have hemb : ((cfg0.win 6).blk t).view.emb (ix2 r q) = ix2 (⟨400 * t.val + r.val, hR⟩ : Fin 10000) q := by
    funext a
    apply Fin.ext
    match a with
    | ⟨0, _⟩ => show win0_6.index t 0 * 400 + 1 * r.val = 400 * t.val + r.val; rw [e0]; omega
    | ⟨1, _⟩ => show win0_6.index t 1 * 128 + 1 * q.val = q.val; rw [e1]; omega
  rw [hemb]
  exact entry_eq (iblk m c 0 t) (iblk m c 1 t) (rowsOf (grid0.coords t) (iblk m c 1 t)) (iblk m c 2 t) (iblk m c 3 t)
    (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    r q ⟨400 * t.val + r.val, hR⟩
    (fun j => blkA_apply m c t r j ⟨400 * t.val + r.val, hR⟩ rfl)
    (blkE_eq m c t)
    (fun k => (rows_apply t (iblk m c 1 t) r k ⟨400 * t.val + r.val, hR⟩ rfl).trans
      (congrFun (blkE_eq m c t) (ix2 (⟨400 * t.val + r.val, hR⟩ : Fin 10000) k)))
    (blkW1_eq m c t) (fun p => blkB1_apply m c t p) (blkW2_eq m c t) (fun p => blkB2_apply m c t p)

/-- An entry of the array lies in point `t`'s block iff each coordinate lies in the block's range on its axis. -/
theorem mem_blk (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v0).slice (win0_6.rect t)).set ↔ _
  rw [View.set_slice_whole, Rect.mem_set_unit]
  exact Iff.rfl

/-- Every entry is written: row `x` lies in the block of point `x / 400`. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨-, -, -, -, -, -, -, -, -, -, -, -, e0, e1, -⟩ := idx_facts ⟨(i 0).val / 400, ht⟩
  refine ⟨⟨(i 0).val / 400, ht⟩, flush0_6 _, ?_⟩
  rw [mem_blk]
  intro a
  match a with
  | ⟨0, _⟩ =>
    show win0_6.index ⟨(i 0).val / 400, ht⟩ 0 * 400 ≤ (i 0).val ∧ (i 0).val < win0_6.index ⟨(i 0).val / 400, ht⟩ 0 * 400 + 400
    rw [e0]
    show (i 0).val / 400 * 400 ≤ (i 0).val ∧ (i 0).val < (i 0).val / 400 * 400 + 400
    omega
  | ⟨1, _⟩ =>
    show win0_6.index ⟨(i 0).val / 400, ht⟩ 1 * 128 ≤ (i 1).val ∧ (i 1).val < win0_6.index ⟨(i 0).val / 400, ht⟩ 1 * 128 + 128
    rw [e1]
    omega

/-- So after the run the result array holds the specification. -/
theorem final (c : Dev nD) : (dats m 0 c).arrAt 6 cfg0.N = result m c :=
  (dats m 0 c).arrAt_eq_of_cover 6 (result m c) (fun t _ => flushed_eq m c t) cover

/-- The kernel's run: every weakly fair execution ends with the result array at the specification of the arguments, the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Hand

end
-- ==== Proof.RefRun.lean ====
/-
  The reference program's top-level function as one straight line of thirty array operations, and its run.

  The program computes, for a node-feature array `ego`, an adjacency array `A`, two weight matrices and two bias
  vectors, `act ((ego + A·ego)·W1ᵀ + b1)` and `act ((ego ⊙ A·ego)·W2ᵀ + b2)`, and adds the second to the first,
  where `act` is the leaky rectifier. It writes `act` as a function of its own that in turn calls a one-line
  selection function; a call means the callee's body run on the operands, each value of the body in a buffer of
  its own, so with both levels of calls substituted the program is sixteen operations of its own and twice seven
  of the rectifier's: the zero, its broadcast, the comparison `x ≥ 0`, the slope (a change of format, the identity
  here), its broadcast, the product `slope · x`, and the selection between `x` and that product.

  A straight line of array operations always terminates, and leaves in each buffer the composition of the
  operations that lead to it, applied to the argument arrays; the argument arrays themselves are written by no
  operation. `refTerm` is that composition for the result buffer, stated for any float values.
-/
import proofs.«171127_g21217138442513_cont_8to1_279_24_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The three stages, for any float values -/

/-- The neighbourhood aggregation `A · ego`: the adjacency array's columns contracted with the feature array's rows. -/
def agg (ego : (⟨S10000x128, .f32⟩ : BufTy).Contents (Elt F)) (A : (⟨S10000x10000, .f32⟩ : BufTy).Contents (Elt F)) : (⟨S10000x128, .f32⟩ : BufTy).Contents (Elt F) :=
  Host.dotGeneral dot_S10000x10000_S10000x128_S10000x128_1_0_0_1_n_n none A ego

/-- A dense layer `x · Wᵀ + b`: the weight matrix transposed, the features' columns contracted with its rows, and the
    bias, made a row and repeated down the ten thousand rows, added. -/
def dense (x : (⟨S10000x128, .f32⟩ : BufTy).Contents (Elt F)) (W : (⟨S128x128, .f32⟩ : BufTy).Contents (Elt F)) (b : (⟨S128, .f32⟩ : BufTy).Contents (Elt F)) : (⟨S10000x128, .f32⟩ : BufTy).Contents (Elt F) :=
  addf (Host.dotGeneral dot_S10000x128_S128x128_S10000x128_1_0_0_1_n_n none x (transpose S128x128 [1, 0] W transposes_S128x128_S128x128_1_0))
    (broadcastInDim S10000x128 ![0, 1] bcast_S1x128_S10000x128_0_1 (broadcastInDim S1x128 ![1] bcast_S128_S1x128_1 b))

/-- The leaky rectifier on an array: where an entry is at least zero the entry, elsewhere the slope times it; the
    zero and the slope are scalars repeated over the whole array. -/
def act (x : (⟨S10000x128, .f32⟩ : BufTy).Contents (Elt F)) : (⟨S10000x128, .f32⟩ : BufTy).Contents (Elt F) :=
  select (cmpf .oge x (broadcastInDim S10000x128 ![] bcast_S_S10000x128 (constant S_ .f32 0x00000000#32))) x
    (mulf (broadcastInDim S10000x128 ![] bcast_S_S10000x128 (constant S_ .f32 0x3C23D70A#32)) x)

/-- The result array as a function of the six argument arrays: the rectified multiplicative branch plus the
    rectified additive branch, in the order the program adds them. -/
def refTerm (ego : (⟨S10000x128, .f32⟩ : BufTy).Contents (Elt F)) (A : (⟨S10000x10000, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) : (⟨S10000x128, .f32⟩ : BufTy).Contents (Elt F) :=
  addf (act (dense (mulf ego (agg ego A)) W2 b2)) (act (dense (addf ego (agg ego A)) W1 b1))

/-! ## The program as a list of operations -/

/-- The thirty operations in program order. The first eight produce the additive branch's pre-activation and the
    slope; the next seven are the rectifier on it, over the first call's buffers; then seven for the
    multiplicative branch (it reuses the aggregation already computed), the rectifier's seven over the second call's
    buffers, and the final sum. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg0 main_v0 main_v1 (addf : (⟨S10000x128, .f32⟩ : BufTy).Contents (Elt F) → (⟨S10000x128, .f32⟩ : BufTy).Contents (Elt F) → (⟨S10000x128, .f32⟩ : BufTy).Contents (Elt F)),
    unary main_arg2 main_v2 ((transpose S128x128 [1, 0] · transposes_S128x128_S128x128_1_0) : (⟨S128x128, .f32⟩ : BufTy).Contents (Elt F) → (⟨S128x128, .f32⟩ : BufTy).Contents (Elt F)),
    binary main_v1 main_v2 main_v3 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v4 (broadcastInDim S1x128 ![1] bcast_S128_S1x128_1 : (⟨S128, .f32⟩ : BufTy).Contents (Elt F) → (⟨S1x128, .f32⟩ : BufTy).Contents (Elt F)),
    unary main_v4 main_v5 (broadcastInDim S10000x128 ![0, 1] bcast_S1x128_S10000x128_0_1 : (⟨S1x128, .f32⟩ : BufTy).Contents (Elt F) → (⟨S10000x128, .f32⟩ : BufTy).Contents (Elt F)),
    binary main_v3 main_v5 main_v6 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v6) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v6) main_call0.v4 mulf,
    TRef.ternary main_call0.v1 (.of main_v6) main_call0.v4 main_call0.call0.v0 select,
    binary main_arg0 main_v0 main_v8 (mulf : (⟨S10000x128, .f32⟩ : BufTy).Contents (Elt F) → (⟨S10000x128, .f32⟩ : BufTy).Contents (Elt F) → (⟨S10000x128, .f32⟩ : BufTy).Contents (Elt F)),
    unary main_arg4 main_v9 ((transpose S128x128 [1, 0] · transposes_S128x128_S128x128_1_0) : (⟨S128x128, .f32⟩ : BufTy).Contents (Elt F) → (⟨S128x128, .f32⟩ : BufTy).Contents (Elt F)),
    binary main_v8 main_v9 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S10000x128 ![0, 1] bcast_S1x128_S10000x128_0_1 : (⟨S1x128, .f32⟩ : BufTy).Contents (Elt F) → (⟨S10000x128, .f32⟩ : BufTy).Contents (Elt F)),
    binary main_v10 main_v12 main_v13 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3C23D70A#32),
    TRef.nullary main_call1.cst (constant S_ .f32 0x00000000#32),
    TRef.unary main_call1.cst main_call1.v0 (broadcastInDim S10000x128 ![] bcast_S_S10000x128),
    TRef.binary (.of main_v13) main_call1.v0 main_call1.v1 (cmpf .oge),
    TRef.unary (.of main_cst_0) main_call1.v2 id,
    TRef.unary main_call1.v2 main_call1.v3 (broadcastInDim S10000x128 ![] bcast_S_S10000x128),
    TRef.binary main_call1.v3 (.of main_v13) main_call1.v4 mulf,
    TRef.ternary main_call1.v1 (.of main_v13) main_call1.v4 main_call1.call0.v0 select,
    binary main_v14 main_v7 main_v15 (addf : (⟨S10000x128, .f32⟩ : BufTy).Contents (Elt F) → (⟨S10000x128, .f32⟩ : BufTy).Contents (Elt F) → (⟨S10000x128, .f32⟩ : BufTy).Contents (Elt F)) ]

set_option maxRecDepth 1024 in
/-- The top-level function is that straight line: with the two functions' bodies substituted at their calls and
    the sequencing re-associated, both sides are one chain of the same steps. -/
theorem main_eq (c : Dev nD) : main (F := F) c = seq ops := by
  simp only [main, fn_leaky_relu.body, fn_where.body, seq, bind_assoc, pure_bind]

/-! ## What the line leaves in the result buffer and in the argument buffers -/

/-- From any contents `V`, the result buffer ends at `refTerm` of the six argument buffers' contents: each operation's
    value is read at the buffer it writes and passed over at every other, and the typed references of the rectifier's
    calls carry their contents unchanged. -/
theorem result_eq (V : Valuation τ sig (Elt F)) :
    after ops V (main_v15 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! No operation writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches device buffers only. -/
theorem ops_sub : (ops : List (HloOp τ sig (Elt F))).Forall fun op => op.bufs ⊆ tcRefs τ sig :=
  ⟨binary_bufs_sub .., binary_bufs_sub .., unary_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., binary_bufs_sub .., unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..,
    binary_bufs_sub ..⟩

/-- On every device, for any float values, from any memory with zero counters: every weakly fair execution of the
    program terminates, with the result buffer at `refTerm` of the argument arrays and the six argument arrays
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.Hand

end
-- ==== Proof.RefValue.lean ====
/-
  The reference's result array is the specified function, entry by entry, on the extended reals.

  Read at row `r` and column `c`, every stage of the reference is a finite expression in the entries of its operands:
    * a product of arrays at `(r, c)` is the sum, over the contracted coordinate `k`, of the left operand at `(r, k)`
      times the right operand at `(k, c)` — so the aggregation `A · ego` at `(r, k)` is `Σ_j A[r, j] · ego[j, k]`;
    * the transposed weight matrix at `(k, c)` is the matrix at `(c, k)`, so `x · Wᵀ` at `(r, c)` is `Σ_k x[r, k] · W[c, k]`;
    * the bias, made a row and repeated down the rows, is `b[c]` at `(r, c)`;
    * the rectifier at an entry compares that entry with the scalar zero and chooses between it and the scalar slope
      times it — the specification's `leaky` of the entry.
  The reference adds the multiplicative branch to the additive one, the specification the other way round: addition
  of extended reals commutes. Nothing here needs an entry to be finite.
-/
import proofs.«171127_g21217138442513_cont_8to1_279_24_alg».proof.Proof.RefRun
import proofs.«171127_g21217138442513_cont_8to1_279_24_alg».proof.Proof.Spec
import Idealize.ShloMosaic.PureOps.Ideal.Laws
import Idealize.ShloMosaic.Lib.ValueLayout
import Idealize.ShloMosaic.Lib.StackMember

noncomputable section

namespace Cert.ReferenceIdeal.Hand

open Cert.ReferenceIdeal Cert.ReferenceIdeal.Gen Idealize.ShloMosaic Idealize.ShloMosaic.ValueIdx Idealize.SL.Sem
open scoped BigOperators

/-! ## Each stage at an entry -/

/-- The aggregation at `(r, k)`: row `r` of the adjacency array against column `k` of the feature array. The
    contraction is over the adjacency array's second axis and the feature array's first, the plain matrix product. -/
theorem agg_apply (ego : FVec Ideal S10000x128 .f32) (A : FVec Ideal S10000x10000 .f32) (r : Fin 10000) (k : Fin 128) :
    agg (F := Ideal) ego A (ix2 r k) = Cert.Agg.side ego A r k := by
  unfold agg Cert.Agg.side
  exact StackMember.dotGeneral_plain_apply none A ego r k

/-- A feature array times a square matrix, at `(r, c)`: the same plain product, contracted over the 128 columns. -/
theorem dot_apply (x : FVec Ideal S10000x128 .f32) (M : FVec Ideal S128x128 .f32) (r : Fin 10000) (c : Fin 128) :
    Host.dotGeneral (F := Ideal) dot_S10000x128_S128x128_S10000x128_1_0_0_1_n_n none x M (ix2 r c)
      = ∑ k : Fin 128, x (ix2 r k) * M (ix2 k c) :=
  StackMember.dotGeneral_plain_apply none x M r c

/-- The bias vector made a one-row matrix and then repeated down the rows reads `b[c]` at `(r, c)`: the first
    broadcast puts the vector's axis second, the second keeps both axes and stretches the unit one. -/
theorem bias_apply (b : FVec Ideal S128 .f32) (r : Fin 10000) (c : Fin 128) :
    broadcastInDim S10000x128 ![0, 1] bcast_S1x128_S10000x128_0_1 (broadcastInDim S1x128 ![1] bcast_S128_S1x128_1 b) (ix2 r c)
      = b (ix1 c) := by
  rw [broadcastInDim_apply ![0, 1] bcast_S1x128_S10000x128_0_1 _ (ix2 r c) (ix2 (0 : Fin 1) c)
        (fun a => match a with | ⟨0, _⟩ => rfl | ⟨1, _⟩ => rfl),
      broadcastInDim_apply ![1] bcast_S128_S1x128_1 b (ix2 (0 : Fin 1) c) (ix1 c)
        (fun a => match a with | ⟨0, _⟩ => rfl)]

/-- The dense layer at `(r, c)`: `Σ_k x[r, k] · W[c, k] + b[c]`. -/
theorem dense_apply (x : FVec Ideal S10000x128 .f32) (W : FVec Ideal S128x128 .f32) (b : FVec Ideal S128 .f32) (r : Fin 10000) (c : Fin 128) :
    dense (F := Ideal) x W b (ix2 r c) = (∑ k : Fin 128, x (ix2 r k) * W (ix2 c k)) + b (ix1 c) := by
  unfold dense
  rw [addf_apply, dot_apply, bias_apply]
  refine congrArg (· + b (ix1 c)) (Finset.sum_congr rfl fun k _ => ?_)
  rw [transpose_ix2_apply]

/-- The rectifier at an entry is the specification's `leaky` of that entry: the repeated scalars read their one
    value everywhere, and the comparison, the product and the selection act entry by entry. -/
theorem act_apply (x : FVec Ideal S10000x128 .f32) (j : S10000x128.Idx) : act (F := Ideal) x j = Cert.Agg.leaky (x j) := rfl

/-! ## The whole array -/

/-- The reference's composed term at the extended reals is the specified function of the six argument arrays. -/
theorem refTerm_eq (ego : FVec Ideal S10000x128 .f32) (A : FVec Ideal S10000x10000 .f32) (W1 : FVec Ideal S128x128 .f32) (b1 : FVec Ideal S128 .f32)
    (W2 : FVec Ideal S128x128 .f32) (b2 : FVec Ideal S128 .f32) :
    refTerm (F := Ideal) ego A W1 b1 W2 b2 = Cert.Agg.G ego A W1 b1 W2 b2 := by
  funext i
  obtain ⟨r, c, rfl⟩ : ∃ (r : Fin 10000) (c : Fin 128), i = ix2 r c := ⟨i 0, i 1, eq_ix2 i⟩
  show _ = Cert.Agg.leaky (Cert.Agg.preSum ego A W1 b1 r c) + Cert.Agg.leaky (Cert.Agg.preBi ego A W2 b2 r c)
  unfold refTerm Cert.Agg.preSum Cert.Agg.preBi
  rw [addf_apply, act_apply, act_apply, dense_apply, dense_apply]
  simp only [mulf_apply, addf_apply, agg_apply]
  exact add_comm _ _

/-! ## The run, with the specified function in the result buffer -/

/-- On every device, from any memory with zero counters, at the extended reals: every weakly fair execution of the
    reference terminates, its result buffer holds the specified function of the argument arrays, and the six
    argument arrays are unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = Cert.Agg.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (refTerm_eq _ _ _ _ _ _), (h c).2⟩) (run (F := Ideal) m ρ)

end Cert.ReferenceIdeal.Hand

end
-- ==== Proof.lean ====
/-
  The kernel and its reference compute one function of their six arguments on the extended reals.

  Arguments: node embeddings `ego` (10000 × 128), a dense adjacency matrix `A` (10000 × 10000), two weight matrices
  `W1`, `W2` (128 × 128) and two bias vectors `b1`, `b2` (128). With `side = A · ego`, both programs produce
    leaky ((ego + side) · W1ᵀ + b1) + leaky ((ego ⊙ side) · W2ᵀ + b2),
  `leaky x` being `x` where `0 ≤ x` and a fixed slope times `x` elsewhere (the same constant word in both programs,
  so its value never matters).

  The kernel walks the 10000 rows in 25 blocks of 400: at each block it multiplies the block's adjacency rows by the
  whole embedding table, takes the same 400 rows of the table, and applies the two dense layers and the rectifiers to
  that block; the blocks tile the result. The reference does the same on whole arrays, with the weight matrices
  transposed first and the two branches added in the other order. Entry by entry the two are the same finite sums of
  products, up to the names of the summation indices and the commutativity of the last addition, both of which hold
  for all extended reals: the hypothesis that the inputs are finite is never used.

  The three programs terminate without fault and leave their arguments unchanged; the idealized kernel is the kernel's
  own text read on the extended reals (no operation was rewritten), so the link between the two is trivial.
-/
import proofs.«171127_g21217138442513_cont_8to1_279_24_alg».proof.Defs
import proofs.«171127_g21217138442513_cont_8to1_279_24_alg».proof.Proof.Gen.Kernel
import proofs.«171127_g21217138442513_cont_8to1_279_24_alg».proof.Proof.Gen.Kernel.Skeleton
import proofs.«171127_g21217138442513_cont_8to1_279_24_alg».proof.Proof.Gen.Kernel.Launch
import proofs.«171127_g21217138442513_cont_8to1_279_24_alg».proof.Proof.Gen.Kernel.Points
import proofs.«171127_g21217138442513_cont_8to1_279_24_alg».proof.Proof.Gen.Kernel.Frame
import proofs.«171127_g21217138442513_cont_8to1_279_24_alg».proof.Proof.Gen.KernelIdeal
import proofs.«171127_g21217138442513_cont_8to1_279_24_alg».proof.Proof.Gen.KernelIdeal.Skeleton
import proofs.«171127_g21217138442513_cont_8to1_279_24_alg».proof.Proof.Gen.KernelIdeal.Launch
import proofs.«171127_g21217138442513_cont_8to1_279_24_alg».proof.Proof.Gen.KernelIdeal.Points
import proofs.«171127_g21217138442513_cont_8to1_279_24_alg».proof.Proof.Gen.KernelIdeal.Frame
import proofs.«171127_g21217138442513_cont_8to1_279_24_alg».proof.Proof.Gen.KernelIdeal.Value
import proofs.«171127_g21217138442513_cont_8to1_279_24_alg».proof.Proof.Gen.ReferenceIdeal
import proofs.«171127_g21217138442513_cont_8to1_279_24_alg».proof.Proof.Gen.Pre_finite_inputs
import proofs.«171127_g21217138442513_cont_8to1_279_24_alg».proof.Proof.KernelValue
import proofs.«171127_g21217138442513_cont_8to1_279_24_alg».proof.Proof.RefValue
import Idealize.ShloMosaic.Adequacy
import Idealize.ShloMosaic.Init

noncomputable section

namespace Cert.Proof

open Idealize.ShloMosaic Idealize.SL.Sem

/-- The kernel as printed terminates without fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Hand.run_G m ρ)

/-- No operation of the kernel was rewritten on the way to the extended reals: nothing to preserve. -/
theorem preserves : Cert.preserves_Kernel_KernelIdeal := trivial

/-- From memories that agree on the six arguments both programs end with the result array at the one specified function
    of those arguments: the kernel block by block, the reference on whole arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run_G m' ρ')
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
